-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1152 : Shape := ⟨3, ![8, 2048, 1152]⟩
abbrev S4608x1152 : Shape := ⟨2, ![4608, 1152]⟩
abbrev S4608 : Shape := ⟨1, ![4608]⟩
abbrev S_ : Shape := ⟨0, ![]⟩

class Facts : Prop where
  bcast_S_S8x2048x1152 : S_.BroadcastsInDim S8x2048x1152 (![] : Fin 0 → Fin S8x2048x1152.rank)
  reducesTo_S8x2048x1152_S_d0_1_2 : S8x2048x1152.ReducesTo [0, 1, 2] S_
  h_S_ : 0 < S_.numel
  bcast_S_S4608 : S_.BroadcastsInDim S4608 (![] : Fin 0 → Fin S4608.rank)
  reducesTo_S4608_S_d0 : S4608.ReducesTo [0] S_

variable [Facts]

def fn {F : FTy → Type} [FloatOps F] (main_arg0 : FVec F S8x2048x1152 .f32) (main_arg1 : IVec S4608x1152 32) (main_arg2 : FVec F S4608 .f32) (main_arg3 : FVec F S4608 .f32) : IVec S_ 1 :=
  let main_v0 : FVec F S8x2048x1152 .f32 := Host.absf main_arg0
  let main_cst : FVec F S_ .f32 := constant S_ .f32 0x7F800000#32
  let main_v1 : FVec F S8x2048x1152 .f32 := broadcastInDim S8x2048x1152 ![] bcast_S_S8x2048x1152 main_cst
  let main_v2 : IVec S8x2048x1152 1 := cmpf .olt main_v0 main_v1
  let main_c : IVec S_ 1 := constantI S_ 1 1#1
  let main_v3 : IVec S_ 1 := (fun x v => Host.reduce IntOp.andi x v reducesTo_S8x2048x1152_S_d0_1_2 h_S_) main_v2 main_c
  let main_v4 : FVec F S4608 .f32 := Host.absf main_arg2
  let main_cst_0 : FVec F S_ .f32 := constant S_ .f32 0x7F800000#32
  let main_v5 : FVec F S4608 .f32 := broadcastInDim S4608 ![] bcast_S_S4608 main_cst_0
  let main_v6 : IVec S4608 1 := cmpf .olt main_v4 main_v5
  let main_c_1 : IVec S_ 1 := constantI S_ 1 1#1
  let main_v7 : IVec S_ 1 := (fun x v => Host.reduce IntOp.andi x v reducesTo_S4608_S_d0 h_S_) main_v6 main_c_1
  let main_v8 : IVec S_ 1 := andi main_v3 main_v7
  let main_v9 : FVec F S4608 .f32 := Host.absf main_arg3
  let main_cst_2 : FVec F S_ .f32 := constant S_ .f32 0x7F800000#32
  let main_v10 : FVec F S4608 .f32 := broadcastInDim S4608 ![] bcast_S_S4608 main_cst_2
  let main_v11 : IVec S4608 1 := cmpf .olt main_v9 main_v10
  let main_c_3 : IVec S_ 1 := constantI S_ 1 1#1
  let main_v12 : IVec S_ 1 := (fun x v => Host.reduce IntOp.andi x v reducesTo_S4608_S_d0 h_S_) main_v11 main_c_3
  let main_v13 : IVec S_ 1 := andi main_v8 main_v12
  main_v13
-- ==== Kernel.lean ====
abbrev S8x2048x1152 : Shape := ⟨3, ![8, 2048, 1152]⟩
abbrev S4608x1152 : Shape := ⟨2, ![4608, 1152]⟩
abbrev S4608 : Shape := ⟨1, ![4608]⟩
abbrev S16384x1152 : Shape := ⟨2, ![16384, 1152]⟩
abbrev S4608x1 : Shape := ⟨2, ![4608, 1]⟩
abbrev S1x4608 : Shape := ⟨2, ![1, 4608]⟩
abbrev S16384x4608 : Shape := ⟨2, ![16384, 4608]⟩
abbrev S1024x1152 : Shape := ⟨2, ![1024, 1152]⟩
abbrev S512x1152 : Shape := ⟨2, ![512, 1152]⟩
abbrev S512x1 : Shape := ⟨2, ![512, 1]⟩
abbrev S1x512 : Shape := ⟨2, ![1, 512]⟩
abbrev S1024x512 : Shape := ⟨2, ![1024, 512]⟩
abbrev S8x2048x4608 : Shape := ⟨3, ![8, 2048, 4608]⟩

abbrev nBuf : Space → Nat
  | .hbm => 9
  | .vmem => 10
  | .smem => 0
  | _ => 0

abbrev bufTy : (tb : Table) → Fin (tcTables nBuf tb) → BufTy
  | .hbm, ⟨0, _⟩ => ⟨S8x2048x1152, .f32⟩
  | .hbm, ⟨1, _⟩ => ⟨S4608x1152, .i32⟩
  | .hbm, ⟨2, _⟩ => ⟨S4608, .f32⟩
  | .hbm, ⟨3, _⟩ => ⟨S4608, .f32⟩
  | .hbm, ⟨4, _⟩ => ⟨S16384x1152, .f32⟩
  | .hbm, ⟨5, _⟩ => ⟨S4608x1, .f32⟩
  | .hbm, ⟨6, _⟩ => ⟨S1x4608, .f32⟩
  | .hbm, ⟨7, _⟩ => ⟨S16384x4608, .f32⟩
  | .hbm, ⟨8, _⟩ => ⟨S8x2048x4608, .f32⟩
  | .local _ .vmem, ⟨0, _⟩ => ⟨S1024x1152, .f32⟩
  | .local _ .vmem, ⟨1, _⟩ => ⟨S1024x1152, .f32⟩
  | .local _ .vmem, ⟨2, _⟩ => ⟨S512x1152, .i32⟩
  | .local _ .vmem, ⟨3, _⟩ => ⟨S512x1152, .i32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S8x2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1152 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x2048x1152_S16384x1152 : S8x2048x1152.ShapeCasts S16384x1152
  shapeCasts_S4608_S4608x1 : S4608.ShapeCasts S4608x1
  shapeCasts_S4608_S1x4608 : S4608.ShapeCasts S1x4608
  inb_S1024x1152_S1024x1152_0_0 : ∀ a, (![0, 0] : Fin 2 → Nat) a + S1024x1152.size a ≤ S1024x1152.size a
  h_S1024x1152 : 0 < S1024x1152.numel
  shapeCasts_S1024x1152_S1024x1152 : S1024x1152.ShapeCasts S1024x1152
  bitsLt_bf16_f32 : FTy.bits .bf16 < FTy.bits .f32
  inb_S512x1152_S512x1152_0_0 : ∀ a, (![0, 0] : Fin 2 → Nat) a + S512x1152.size a ≤ S512x1152.size a
  h_S512x1152 : 0 < S512x1152.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1152 : S512x1.Broadcasts S512x1152
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S16384x4608_S8x2048x4608 : S16384x4608.ShapeCasts S8x2048x4608
  dot_S1024x1152_S512x1152_S1024x512_1_1_0_0_n_n_wf : DotDims.WF S1024x1152 S512x1152 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1152.size a ≤ S16384x1152.size a
  hwx0_0 : ∀ i : grid0.Coords, EltTy.bits .f32 = 32 ∨ (Rect.block (s := S16384x1152) S1024x1152.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1152.size a ≤ S4608x1152.size a
  hwx0_1 : ∀ i : grid0.Coords, EltTy.bits .i32 = 32 ∨ (Rect.block (s := S4608x1152) S512x1152.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4608x1.size a
  hwx0_2 : ∀ i : grid0.Coords, EltTy.bits .f32 = 32 ∨ (Rect.block (s := S4608x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4608.size a
  hwx0_3 : ∀ i : grid0.Coords, EltTy.bits .f32 = 32 ∨ (Rect.block (s := S1x4608) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S16384x4608.size a
  hwx0_4 : ∀ i : grid0.Coords, EltTy.bits .f32 = 32 ∨ (Rect.block (s := S16384x4608) S1024x512.size (cc0_transform_4 i) (hinb0_4 i)).WholeWords (EltTy.packing .f32)

variable [Facts₀]

def dot_S1024x1152_S512x1152_S1024x512_1_1_0_0_n_n : DotDims S1024x1152 S512x1152 S1024x512 where
  lhsContracting := [1]
  rhsContracting := [1]
  lhsNonContracting := [0]
  rhsNonContracting := [0]
  lhsBatch := []
  rhsBatch := []
  wf := dot_S1024x1152_S512x1152_S1024x512_1_1_0_0_n_n_wf

abbrev win0_0 : Pipeline.Window sig grid0 :=
  Pipeline.Window.ofSpec (Memref.whole main_v0) S1024x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1152.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1152 : Shape := ⟨3, ![8, 2048, 1152]⟩
abbrev S4608x1152 : Shape := ⟨2, ![4608, 1152]⟩
abbrev S4608 : Shape := ⟨1, ![4608]⟩
abbrev S4608x1 : Shape := ⟨2, ![4608, 1]⟩
abbrev S8x2048x4608 : Shape := ⟨3, ![8, 2048, 4608]⟩
abbrev S1x1x4608 : Shape := ⟨3, ![1, 1, 4608]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1152, .f32⟩
  | .hbm, ⟨1, _⟩ => ⟨S4608x1152, .i32⟩
  | .hbm, ⟨2, _⟩ => ⟨S4608, .f32⟩
  | .hbm, ⟨3, _⟩ => ⟨S4608, .f32⟩
  | .hbm, ⟨4, _⟩ => ⟨S4608x1152, .f32⟩
  | .hbm, ⟨5, _⟩ => ⟨S4608x1, .f32⟩
  | .hbm, ⟨6, _⟩ => ⟨S4608x1152, .f32⟩
  | .hbm, ⟨7, _⟩ => ⟨S4608x1152, .f32⟩
  | .hbm, ⟨8, _⟩ => ⟨S8x2048x4608, .f32⟩
  | .hbm, ⟨9, _⟩ => ⟨S1x1x4608, .f32⟩
  | .hbm, ⟨10, _⟩ => ⟨S8x2048x4608, .f32⟩
  | .hbm, ⟨11, _⟩ => ⟨S8x2048x4608, .f32⟩
  | .hbm, ⟨12, _⟩ => ⟨S_, .f32⟩
  | .hbm, ⟨13, _⟩ => ⟨S8x2048x4608, .f32⟩
  | .hbm, ⟨14, _⟩ => ⟨S8x2048x4608, .f32⟩
  | .hbm, ⟨15, _⟩ => ⟨S_, .f32⟩
  | .hbm, ⟨16, _⟩ => ⟨S8x2048x4608, .f32⟩
  | .hbm, ⟨17, _⟩ => ⟨S8x2048x4608, .f32⟩
  | .hbm, ⟨18, _⟩ => ⟨S8x2048x4608, .f32⟩
  | .hbm, ⟨19, _⟩ => ⟨S8x2048x4608, .f32⟩
  | .hbm, ⟨20, _⟩ => ⟨S8x2048x4608, .f32⟩
  | .hbm, ⟨21, _⟩ => ⟨S_, .f32⟩
  | .hbm, ⟨22, _⟩ => ⟨S8x2048x4608, .f32⟩
  | .hbm, ⟨23, _⟩ => ⟨S8x2048x4608, .f32⟩
  | .hbm, ⟨24, _⟩ => ⟨S8x2048x4608, .f32⟩
  | .hbm, ⟨25, _⟩ => ⟨S_, .f32⟩
  | .hbm, ⟨26, _⟩ => ⟨S8x2048x4608, .f32⟩
  | .hbm, ⟨27, _⟩ => ⟨S8x2048x4608, .f32⟩
  | .hbm, ⟨28, _⟩ => ⟨S8x2048x4608, .f32⟩
  | _, _ => ⟨S8x2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S4608_S4608x1_0 : S4608.BroadcastsInDim S4608x1 (![0] : Fin 1 → Fin S4608x1.rank)
  bcast_S4608x1_S4608x1152_0_1 : S4608x1.BroadcastsInDim S4608x1152 (![0, 1] : Fin 2 → Fin S4608x1152.rank)
  bcast_S4608_S1x1x4608_2 : S4608.BroadcastsInDim S1x1x4608 (![2] : Fin 1 → Fin S1x1x4608.rank)
  bcast_S1x1x4608_S8x2048x4608_0_1_2 : S1x1x4608.BroadcastsInDim S8x2048x4608 (![0, 1, 2] : Fin 3 → Fin S8x2048x4608.rank)
  bcast_S_S8x2048x4608 : S_.BroadcastsInDim S8x2048x4608 (![] : Fin 0 → Fin S8x2048x4608.rank)
  dot_S8x2048x1152_S4608x1152_S8x2048x4608_2_1_01_0_n_n_wf : DotDims.WF S8x2048x1152 S4608x1152 S8x2048x4608 [2] [1] [0, 1] [0] [] []

variable [Facts₀]

def dot_S8x2048x1152_S4608x1152_S8x2048x4608_2_1_01_0_n_n : DotDims S8x2048x1152 S4608x1152 S8x2048x4608 where
  lhsContracting := [2]
  rhsContracting := [1]
  lhsNonContracting := [0, 1]
  rhsNonContracting := [0]
  lhsBatch := []
  rhsBatch := []
  wf := dot_S8x2048x1152_S4608x1152_S8x2048x4608_2_1_01_0_n_n_wf

class Facts : Prop extends Facts₀ where

variable [Facts]
-- ==== Proof.Spec.lean ====
/-
  The function both programs compute. A dense layer over int-quantized weights followed by the tanh form of GELU:
  for a row x of 1152 activations, a row w of 1152 integer weights with its channel's scale s and bias b,

      y = (sum over k of x k * (w k * s)) + b        and the result is   (1/2 * y) * (1 + tanh (c * (y + ((a * y) * y) * y))).

  The four float constants 1/2, 1, c, a stay the 32-bit words both programs carry: the same word denotes the same
  extended real on either side, so none of them is ever evaluated. The products and sums are written in the one order
  and grouping both programs use, so no law of arithmetic is needed to join them; only the layout of the arrays
  differs, a [16384, 4608] matrix for the kernel and an [8, 2048, 4608] array for the reference.
-/
import Idealize.ShloMosaic.PureOps.Ideal
import Idealize.ShloMosaic.Lib.ValueIdx

noncomputable section

namespace Cert.QuantGelu

open Idealize.ShloMosaic Idealize.ShloMosaic.ValueIdx

/-- The tanh form of GELU on the extended reals, its four constants as their float words. -/
def gelu (y : EReal) : EReal :=
  (Ideal.ofBits .f32 0x3F000000#32 * y)
    * (Ideal.ofBits .f32 0x3F800000#32
        + Ideal.tanh (Ideal.ofBits .f32 0x3F4C422A#32 * (y + ((Ideal.ofBits .f32 0x3D372713#32 * y) * y) * y)))

/-- The projected value before the activation: a row of activations against a row of integer weights, each weight
    read as the integer it is and multiplied by its channel's scale, plus the channel's bias. -/
def project (x : Fin 1152 → EReal) (w : Fin 1152 → BitVec 32) (s b : EReal) : EReal :=
  (∑ k : Fin 1152, x k * (FloatOps.sitofp (F := Ideal) .f32 (w k) * s)) + b

/-- Entry (r, o) of the result over the matrices the kernel's call is handed: activations [16384, 1152], weights
    [4608, 1152], the scales as a column [4608, 1] and the biases as a row [1, 4608]. -/
def matAt (X : (⟨2, ![16384, 1152]⟩ : Shape).Idx → EReal) (W : (⟨2, ![4608, 1152]⟩ : Shape).Idx → BitVec 32)
    (Sc : (⟨2, ![4608, 1]⟩ : Shape).Idx → EReal) (Bi : (⟨2, ![1, 4608]⟩ : Shape).Idx → EReal) (r : Fin 16384) (o : Fin 4608) : EReal :=
  gelu (project (fun k => X (ix2 r k)) (fun k => W (ix2 o k)) (Sc (ix2 o (0 : Fin 1))) (Bi (ix2 (0 : Fin 1) o)))

/-- The whole [16384, 4608] matrix of those entries. -/
def mat (X : (⟨2, ![16384, 1152]⟩ : Shape).Idx → EReal) (W : (⟨2, ![4608, 1152]⟩ : Shape).Idx → BitVec 32)
    (Sc : (⟨2, ![4608, 1]⟩ : Shape).Idx → EReal) (Bi : (⟨2, ![1, 4608]⟩ : Shape).Idx → EReal) :
    (⟨2, ![16384, 4608]⟩ : Shape).Idx → EReal :=
  fun i => matAt X W Sc Bi ⟨(i 0).val, (i 0).isLt⟩ ⟨(i 1).val, (i 1).isLt⟩

theorem mat_ix2 (X : (⟨2, ![16384, 1152]⟩ : Shape).Idx → EReal) (W : (⟨2, ![4608, 1152]⟩ : Shape).Idx → BitVec 32)
    (Sc : (⟨2, ![4608, 1]⟩ : Shape).Idx → EReal) (Bi : (⟨2, ![1, 4608]⟩ : Shape).Idx → EReal) (r : Fin 16384) (o : Fin 4608) :
    mat X W Sc Bi (ix2 r o) = matAt X W Sc Bi r o := rfl

/-- Entry (b, s, o) of the result over the arrays as the two programs are given them: activations [8, 2048, 1152],
    weights [4608, 1152], scales [4608], biases [4608]. -/
def cubeAt (x0 : (⟨3, ![8, 2048, 1152]⟩ : Shape).Idx → EReal) (x1 : (⟨2, ![4608, 1152]⟩ : Shape).Idx → BitVec 32)
    (x2 x3 : (⟨1, ![4608]⟩ : Shape).Idx → EReal) (b : Fin 8) (s : Fin 2048) (o : Fin 4608) : EReal :=
  gelu (project (fun k => x0 (ix3 b s k)) (fun k => x1 (ix2 o k)) (x2 (ix1 o)) (x3 (ix1 o)))

/-- The whole [8, 2048, 4608] result. -/
def cube (x0 : (⟨3, ![8, 2048, 1152]⟩ : Shape).Idx → EReal) (x1 : (⟨2, ![4608, 1152]⟩ : Shape).Idx → BitVec 32)
    (x2 x3 : (⟨1, ![4608]⟩ : Shape).Idx → EReal) : (⟨3, ![8, 2048, 4608]⟩ : Shape).Idx → EReal :=
  fun i => cubeAt x0 x1 x2 x3 ⟨(i 0).val, (i 0).isLt⟩ ⟨(i 1).val, (i 1).isLt⟩ ⟨(i 2).val, (i 2).isLt⟩

theorem cube_ix3 (x0 : (⟨3, ![8, 2048, 1152]⟩ : Shape).Idx → EReal) (x1 : (⟨2, ![4608, 1152]⟩ : Shape).Idx → BitVec 32)
    (x2 x3 : (⟨1, ![4608]⟩ : Shape).Idx → EReal) (b : Fin 8) (s : Fin 2048) (o : Fin 4608) :
    cube x0 x1 x2 x3 (ix3 b s o) = cubeAt x0 x1 x2 x3 b s o := rfl

end Cert.QuantGelu

end
-- ==== Proof.RefValue.lean ====
/-
  The reference, read one operation at a time, is the result array `cube` of its four arguments: the weights are
  converted and scaled by a column broadcast of the scales, the activations are contracted against them over the last
  axis of both, the bias is broadcast over the leading two axes, and the activation is applied entry by entry. Each
  layout operation only renames an index, so at entry (b, s, o) the contraction runs over x0 (b, s, k) and
  x1 (o, k) * x2 o, and the bias read is x3 o.
-/
import proofs.«102484_j64269890617869_1_alg».proof.Proof.Gen.ReferenceIdeal.Read
import proofs.«102484_j64269890617869_1_alg».proof.Proof.Spec

noncomputable section

namespace Cert.ReferenceIdeal.RefValue

open Cert.ReferenceIdeal Cert.ReferenceIdeal.Read Idealize.ShloMosaic Idealize.ShloMosaic.ValueIdx Cert.QuantGelu

/-- The left operand of the contraction at entry (b, s, o) and position k is the activation at (b, s, k). -/
theorem lidx_eq (b : Fin 8) (s : Fin 2048) (o : Fin 4608) (k : Fin 1152) : lidx_main_v4 (ix3 b s o) k = ix3 b s k :=
  funext fun a => Fin.ext (by match a with | ⟨0, _⟩ => rfl | ⟨1, _⟩ => rfl | ⟨2, _⟩ => rfl)

/-- The right operand there is the scaled weight at (o, k). -/
theorem ridx_eq (b : Fin 8) (s : Fin 2048) (o : Fin 4608) (k : Fin 1152) : ridx_main_v4 (ix3 b s o) k = ix2 o k :=
  funext fun a => Fin.ext (by match a with | ⟨0, _⟩ => rfl | ⟨1, _⟩ => rfl)

/-- The scale broadcast along a weight row is the scale of that row's channel. -/
theorem scale_idx_eq (o : Fin 4608) (k : Fin 1152) : idx_main_v1 (idx_main_v2 (ix2 o k)) = ix1 o :=
  funext fun a => Fin.ext (by match a with | ⟨0, _⟩ => rfl)

/-- The bias broadcast over the leading axes is the bias of the entry's channel. -/
theorem bias_idx_eq (b : Fin 8) (s : Fin 2048) (o : Fin 4608) : idx_main_v5 (idx_main_v6 (ix3 b s o)) = ix1 o :=
  funext fun a => Fin.ext (by match a with | ⟨0, _⟩ => rfl)

/-- The reference's last stage is `cube` of the four arguments. -/
theorem stage_eq_cube (x0 : (⟨S8x2048x1152, .f32⟩ : BufTy).Contents (Elt Ideal)) (x1 : (⟨S4608x1152, .i32⟩ : BufTy).Contents (Elt Ideal))
    (x2 x3 : (⟨S4608, .f32⟩ : BufTy).Contents (Elt Ideal)) :
    val_main_v20 (F := Ideal) x0 x1 x2 x3 = cube x0 x1 x2 x3 := by
  funext i
  obtain ⟨b, s, o, rfl⟩ : ∃ (b : Fin 8) (s : Fin 2048) (o : Fin 4608), i = ix3 b s o := ⟨i 0, i 1, i 2, eq_ix3 i⟩
  rw [cube_ix3]
  simp only [val_main_v20_apply, val_main_v9_apply, val_main_v19_apply, val_main_v8_apply, val_main_cst_apply,
    val_main_v18_apply, val_main_cst_2_apply, val_main_v17_apply, val_main_v16_apply, val_main_v15_apply,
    val_main_cst_1_apply, val_main_v14_apply, val_main_v13_apply, val_main_v12_apply, val_main_v11_apply,
    val_main_v10_apply, val_main_cst_0_apply, val_main_v7_apply, val_main_v4_apply, val_main_v6_apply,
    val_main_v5_apply, val_main_v3_apply, val_main_v0_apply, val_main_v2_apply, val_main_v1_apply,
    lidx_eq, ridx_eq, scale_idx_eq, bias_idx_eq]
  rfl

end Cert.ReferenceIdeal.RefValue

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.Payload.lean ====
/-
  What the kernel body stores, read at one entry of the block. The body is handed a [1024, 1152] block of
  activations, a [512, 1152] block of integer weights, the [512, 1] column of their scales and the [1, 512] row of
  their biases. It contracts the activations against the scaled weights over the last axis of both, adds the bias
  row to every row, and applies the activation entry by entry. At exact arithmetic the roundings on the way into the
  contraction are the identity and the contraction into a zero accumulator is the plain sum, so entry (p, q) of the
  stored block is the activation applied to
      (sum over k of x0 (p, k) * (x1 (q, k) * x2 (q, 0))) + x3 (0, q).
-/
import proofs.«102484_j64269890617869_1_alg».proof.Proof.Gen.KernelIdeal.Skeleton
import proofs.«102484_j64269890617869_1_alg».proof.Proof.Spec
import proofs.«102484_j64269890617869_1_alg».proof.Proof.LibKeepdims
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx Cert.QuantGelu

/-- The block of projected values the body forms before the activation: its contraction plus the bias row. -/
def preBlock (x0 : Vec Ideal S1024x1152 .f32) (x1 : Vec Ideal S512x1152 .i32) (x2 : Vec Ideal S512x1 .f32) (x3 : Vec Ideal S1x512 .f32) :
    FVec Ideal S1024x512 .f32 :=
  addf
    (matmul dot_S1024x1152_S512x1152_S1024x512_1_1_0_0_n_n none
      (truncf .bf16 (shapeCast S1024x1152 x0 shapeCasts_S1024x1152_S1024x1152) bitsLt_bf16_f32)
      (truncf .bf16 (mulf (sitofp .f32 x1) (broadcastTo S512x1152 (shapeCast S512x1 x2 shapeCasts_S512x1_S512x1) broadcasts_S512x1_S512x1152)) bitsLt_bf16_f32)
      (constant S1024x512 .f32 0x00000000#32))
    (broadcastTo S1024x512 (shapeCast S1x512 x3 shapeCasts_S1x512_S1x512) broadcasts_S1x512_S1024x512)

/-- The stored block is the activation of the projected block, entry by entry: the body's remaining operations are
    pointwise and are exactly the activation's products and sums. -/
theorem pay_eq_gelu (x0 : Vec Ideal S1024x1152 .f32) (x1 : Vec Ideal S512x1152 .i32) (x2 : Vec Ideal S512x1 .f32) (x3 : Vec Ideal S1x512 .f32)
    (j : S1024x512.Idx) : k0_pay1 (F := Ideal) x0 x1 x2 x3 j = gelu (preBlock x0 x1 x2 x3 j) := rfl

/-- The body's contraction: both operands contracted over their last axis, the rows of each kept. -/
abbrev dims := dot_S1024x1152_S512x1152_S1024x512_1_1_0_0_n_n

/-- The left operand at entry i is read in row i 0 … -/
theorem lhs_row (i : S1024x512.Idx) (c : dims.contr.Idx) : (dims.lhsIdx i c 0).val = (i 0).val := by
  unfold DotDims.lhsIdx
  rw [dif_neg (show ¬(0 : Fin S1024x1152.rank) ∈ dims.lhsBatch by decide),
    dif_pos (show (0 : Fin S1024x1152.rank) ∈ dims.lhsNonContracting by decide)]
  rfl
/-- … at the contraction's position; -/
theorem lhs_pos (i : S1024x512.Idx) (c : dims.contr.Idx) : (dims.lhsIdx i c 1).val = (c ⟨0, by decide⟩).val :=
  dims.lhsIdx_val_of_single rfl i c
/-- the right operand in row i 1 … -/
theorem rhs_row (i : S1024x512.Idx) (c : dims.contr.Idx) : (dims.rhsIdx i c 0).val = (i 1).val := by
  unfold DotDims.rhsIdx
  rw [dif_neg (show ¬(0 : Fin S512x1152.rank) ∈ dims.rhsBatch by decide),
    dif_pos (show (0 : Fin S512x1152.rank) ∈ dims.rhsNonContracting by decide)]
  rfl
/-- … at the same position. -/
theorem rhs_pos (i : S1024x512.Idx) (c : dims.contr.Idx) : (dims.rhsIdx i c 1).val = (c ⟨0, by decide⟩).val :=
  dims.rhsIdx_val_of_single rfl i c

/-- Entry (p, q) of the projected block: row p of the activations against row q of the weights, each weight scaled
    by its row's scale, plus the bias of column q. -/
theorem preBlock_apply (x0 : Vec Ideal S1024x1152 .f32) (x1 : Vec Ideal S512x1152 .i32) (x2 : Vec Ideal S512x1 .f32) (x3 : Vec Ideal S1x512 .f32)
    (p : Fin 1024) (q : Fin 512) :
    preBlock x0 x1 x2 x3 (ix2 p q)
      = project (fun k => x0 (ix2 p k)) (fun k => x1 (ix2 q k)) (x2 (ix2 q (0 : Fin 1))) (x3 (ix2 (0 : Fin 1) q)) := by
  unfold preBlock project
  beta_reduce
  rw [addf_apply]
  refine congrArg₂ (· + ·) ?_ ?_
  · refine (Ideal.matmul_constant_zero_apply dims none _ _ (ix2 p q)).trans ?_
    rw [← Equiv.sum_comp (contrEquiv1 dims 1152 rfl rfl).symm]
    refine Finset.sum_congr rfl fun k _ => ?_
    have hk := contrEquiv1_symm_val dims 1152 rfl rfl k
    have el : dims.lhsIdx (ix2 p q) ((contrEquiv1 dims 1152 rfl rfl).symm k) = ix2 p k := funext fun a => Fin.ext (by
      match a with
      | ⟨0, _⟩ => exact lhs_row _ _
      | ⟨1, _⟩ => exact (lhs_pos _ _).trans hk)
    have er : dims.rhsIdx (ix2 p q) ((contrEquiv1 dims 1152 rfl rfl).symm k) = ix2 q k := funext fun a => Fin.ext (by
      match a with
      | ⟨0, _⟩ => exact rhs_row _ _
      | ⟨1, _⟩ => exact (rhs_pos _ _).trans hk)
    rw [el, er, truncf_apply, truncf_apply, shapeCast_self, mulf_apply, sitofp_apply,
      Cert.Lib.Keepdims.broadcastTo_a1_ab_apply, shapeCast_self]
  · rw [broadcastTo_1b_ab_apply, shapeCast_self]

/-- So entry (p, q) of what the body stores is the activation of that projected value. -/
theorem pay_apply (x0 : Vec Ideal S1024x1152 .f32) (x1 : Vec Ideal S512x1152 .i32) (x2 : Vec Ideal S512x1 .f32) (x3 : Vec Ideal S1x512 .f32)
    (p : Fin 1024) (q : Fin 512) :
    k0_pay1 (F := Ideal) x0 x1 x2 x3 (ix2 p q)
      = gelu (project (fun k => x0 (ix2 p k)) (fun k => x1 (ix2 q k)) (x2 (ix2 q (0 : Fin 1))) (x3 (ix2 (0 : Fin 1) q))) :=
  (pay_eq_gelu x0 x1 x2 x3 (ix2 p q)).trans (congrArg gelu (preBlock_apply x0 x1 x2 x3 p q))

end Cert.KernelIdeal.BlockValue

end
-- ==== Proof.Relayout.lean ====
/-
  The two layouts of the result are one array. The kernel's call works on matrices: the activations [8, 2048, 1152]
  flattened to [16384, 1152] with row b * 2048 + s for (b, s), the scales as a column, the biases as a row; and its
  [16384, 4608] result is unflattened to [8, 2048, 4608] the same way. A reshape keeps the row-major position of every
  element, so entry (b, s, o) of the unflattened matrix is entry (b * 2048 + s, o) of the matrix, whose activation row
  is row (b, s) of the original array, whose scale is the scale of channel o and whose bias is the bias of channel o.
-/
import proofs.«102484_j64269890617869_1_alg».proof.Proof.Spec
import proofs.«102484_j64269890617869_1_alg».proof.Proof.LibKeepdims
import Idealize.ShloMosaic.Lib.ValueLayout

noncomputable section

namespace Cert.QuantGelu

open Idealize.ShloMosaic Idealize.ShloMosaic.ValueIdx

variable {α : Type}

/-- The matrix row of position (b, s) of the leading two axes. -/
def flatRow (b : Fin 8) (s : Fin 2048) : Fin 16384 :=
  ⟨b.val * 2048 + s.val, by have := b.isLt; have := s.isLt; omega⟩

/-- A [8, 2048, n] array flattened to [16384, n] reads, at (b * 2048 + s, k), the array at (b, s, k). -/
theorem flatten_apply {n : ℕ} (x : (⟨3, ![8, 2048, n]⟩ : Shape).Idx → α)
    (h : (⟨3, ![8, 2048, n]⟩ : Shape).ShapeCasts ⟨2, ![16384, n]⟩) (b : Fin 8) (s : Fin 2048) (k : Fin n) :
    shapeCast ⟨2, ![16384, n]⟩ x h (ix2 (flatRow b s) k) = x (ix3 b s k) :=
  shapeCast_apply x h _ _ (by
    rw [Shape.rowMajor_val_three, Shape.rowMajor_val_two]
    show (b.val * 2048 + s.val) * n + k.val = (b.val * 2048 + s.val) * n + k.val
    rfl)

/-- A [16384, n] matrix unflattened to [8, 2048, n] reads, at (b, s, o), the matrix at (b * 2048 + s, o). -/
theorem unflatten_apply {n : ℕ} (y : (⟨2, ![16384, n]⟩ : Shape).Idx → α)
    (h : (⟨2, ![16384, n]⟩ : Shape).ShapeCasts ⟨3, ![8, 2048, n]⟩) (b : Fin 8) (s : Fin 2048) (o : Fin n) :
    shapeCast ⟨3, ![8, 2048, n]⟩ y h (ix3 b s o) = y (ix2 (flatRow b s) o) :=
  shapeCast_apply y h _ _ (by
    rw [Shape.rowMajor_val_three, Shape.rowMajor_val_two]
    show (b.val * 2048 + s.val) * n + o.val = (b.val * 2048 + s.val) * n + o.val
    rfl)

/-- The matrix result over the flattened activations, the scale column and the bias row, unflattened, is the result
    array over the arguments as given. -/
theorem unflatten_mat_eq_cube (x0 : (⟨3, ![8, 2048, 1152]⟩ : Shape).Idx → EReal) (x1 : (⟨2, ![4608, 1152]⟩ : Shape).Idx → BitVec 32)
    (x2 x3 : (⟨1, ![4608]⟩ : Shape).Idx → EReal)
    (h0 : (⟨3, ![8, 2048, 1152]⟩ : Shape).ShapeCasts ⟨2, ![16384, 1152]⟩)
    (h2 : (⟨1, ![4608]⟩ : Shape).ShapeCasts ⟨2, ![4608, 1]⟩) (h3 : (⟨1, ![4608]⟩ : Shape).ShapeCasts ⟨2, ![1, 4608]⟩)
    (h4 : (⟨2, ![16384, 4608]⟩ : Shape).ShapeCasts ⟨3, ![8, 2048, 4608]⟩) :
    shapeCast ⟨3, ![8, 2048, 4608]⟩
        (mat (shapeCast ⟨2, ![16384, 1152]⟩ x0 h0) x1 (shapeCast ⟨2, ![4608, 1]⟩ x2 h2) (shapeCast ⟨2, ![1, 4608]⟩ x3 h3)) h4
      = cube x0 x1 x2 x3 := by
  funext i
  obtain ⟨b, s, o, rfl⟩ : ∃ (b : Fin 8) (s : Fin 2048) (o : Fin 4608), i = ix3 b s o := ⟨i 0, i 1, i 2, eq_ix3 i⟩
  rw [cube_ix3, unflatten_apply, mat_ix2]
  unfold matAt cubeAt
  simp only [flatten_apply, Cert.Lib.Keepdims.shapeCast_a_a1_apply, shapeCast_a_1a_apply]

/-- A block of the matrix result, read from blocks of its four operands. Block (bi, bj) of the result, of 1024 rows
    and 512 columns, at its entry j, needs rows bi * 1024 + p of the activations and rows bj * 512 + q of the weights,
    scales and biases: when four blocks x0 … x3 hold exactly those rows, the activation of the projected value formed
    from them at j is the matrix result at the block's entry. -/
theorem mat_of_blocks (X : (⟨2, ![16384, 1152]⟩ : Shape).Idx → EReal) (W : (⟨2, ![4608, 1152]⟩ : Shape).Idx → BitVec 32)
    (Sc : (⟨2, ![4608, 1]⟩ : Shape).Idx → EReal) (Bi : (⟨2, ![1, 4608]⟩ : Shape).Idx → EReal)
    (x0 : (⟨2, ![1024, 1152]⟩ : Shape).Idx → EReal) (x1 : (⟨2, ![512, 1152]⟩ : Shape).Idx → BitVec 32)
    (x2 : (⟨2, ![512, 1]⟩ : Shape).Idx → EReal) (x3 : (⟨2, ![1, 512]⟩ : Shape).Idx → EReal)
    (bi bj : ℕ) (p : Fin 1024) (q : Fin 512) (r : Fin 16384) (o : Fin 4608)
    (hr : r.val = bi * 1024 + p.val) (ho : o.val = bj * 512 + q.val)
    (h0 : ∀ (p : Fin 1024) (k : Fin 1152) (r : Fin 16384), r.val = bi * 1024 + p.val → x0 (ix2 p k) = X (ix2 r k))
    (h1 : ∀ (q : Fin 512) (k : Fin 1152) (o : Fin 4608), o.val = bj * 512 + q.val → x1 (ix2 q k) = W (ix2 o k))
    (h2 : ∀ (q : Fin 512) (o : Fin 4608), o.val = bj * 512 + q.val → x2 (ix2 q (0 : Fin 1)) = Sc (ix2 o (0 : Fin 1)))
    (h3 : ∀ (q : Fin 512) (o : Fin 4608), o.val = bj * 512 + q.val → x3 (ix2 (0 : Fin 1) q) = Bi (ix2 (0 : Fin 1) o)) :
    gelu (project (fun k => x0 (ix2 p k)) (fun k => x1 (ix2 q k)) (x2 (ix2 q (0 : Fin 1))) (x3 (ix2 (0 : Fin 1) q)))
      = mat X W Sc Bi (ix2 r o) := by
  rw [mat_ix2]
  unfold matAt
  rw [funext fun k => h0 p k r hr, funext fun k => h1 q k o ho, h2 q o ho, h3 q o ho]

end Cert.QuantGelu

end
-- ==== Proof.Blocks.lean ====
/-
  From blocks to the array. The call runs over a 16 x 9 grid; at point (i, j) it is handed rows
  [1024 i, 1024 i + 1024) of the activation matrix, rows [512 j, 512 j + 512) of the weights, of the scale column and
  (as columns) of the bias row, and writes back block (i, j), of 1024 x 512 entries, of its result matrix. Entry
  (p, q) of that block is the result matrix `mat` at (1024 i + p, 512 j + q), because the rows the body was handed
  are exactly the rows that entry depends on. The 144 blocks tile the [16384, 4608] matrix, so after the run the whole
  matrix is `mat` of the four matrices the call was handed.
-/
import proofs.«102484_j64269890617869_1_alg».proof.Proof.Gen.KernelIdeal.Frame
import proofs.«102484_j64269890617869_1_alg».proof.Proof.Payload
import proofs.«102484_j64269890617869_1_alg».proof.Proof.Relayout
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx Cert.QuantGelu
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The result matrix over the four matrices as the call finds them. -/
abbrev resultMat (c : Dev nD) : S16384x4608.Idx → EReal :=
  mat (V m c main_v0) (V m c main_arg1) (V m c main_v1) (V m c main_v2)

/-- How the five index maps move together over the grid: the activations follow the result's block row, the
    weights, scales and biases its block column, and the result's block indices stay inside 16 x 9. -/
theorem index_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 15 ∧ win0_4.index t (1 : Fin 2) ≤ 8 :=
  (by decide +kernel : ∀ t : Fin grid0.N, _)

/-- Every block of the 16 x 9 tiling is some point's. -/
theorem index_onto : ∀ (q0 : Fin 16) (q1 : Fin 9), ∃ t : Fin cfg0.N, win0_4.index t = ![q0.val, q1.val] :=
  (by decide +kernel : ∀ (q0 : Fin 16) (q1 : Fin 9), ∃ t : Fin grid0.N, win0_4.index t = ![q0.val, q1.val])

/-- The activation block at a point holds the rows of the result's block row. -/
theorem read_act (c : Dev nD) (t : Fin cfg0.N) (p : Fin 1024) (k : Fin 1152) (r : Fin 16384)
    (hr : r.val = win0_4.index t (0 : Fin 2) * 1024 + p.val) : iblk m c 0 t (ix2 p k) = V m c main_v0 (ix2 r k) := by
  obtain ⟨e0, e1, -⟩ := index_facts t
  show V m c main_v0 (((cfg0.win 0).blk t).view.emb (ix2 p k)) = V m c main_v0 (ix2 r k)
  have h : ((cfg0.win 0).blk t).view.emb (ix2 p k) = ix2 r k := by
    funext a; apply Fin.ext
    match a with
    | ⟨0, _⟩ => show win0_0.index t (0 : Fin 2) * 1024 + 1 * p.val = r.val; omega
    | ⟨1, _⟩ => show win0_0.index t (1 : Fin 2) * 1152 + 1 * k.val = k.val; omega
  rw [h]

/-- The weight block holds the rows of the result's block column. -/
theorem read_wt (c : Dev nD) (t : Fin cfg0.N) (q : Fin 512) (k : Fin 1152) (o : Fin 4608)
    (ho : o.val = win0_4.index t (1 : Fin 2) * 512 + q.val) : iblk m c 1 t (ix2 q k) = V m c main_arg1 (ix2 o k) := by
  obtain ⟨-, -, e2, e3, -⟩ := index_facts t
  show V m c main_arg1 (((cfg0.win 1).blk t).view.emb (ix2 q k)) = V m c main_arg1 (ix2 o k)
  have h : ((cfg0.win 1).blk t).view.emb (ix2 q k) = ix2 o k := by
    funext a; apply Fin.ext
    match a with
    | ⟨0, _⟩ => show win0_1.index t (0 : Fin 2) * 512 + 1 * q.val = o.val; omega
    | ⟨1, _⟩ => show win0_1.index t (1 : Fin 2) * 1152 + 1 * k.val = k.val; omega
  rw [h]

/-- The scale block holds the scales of those channels. -/
theorem read_scale (c : Dev nD) (t : Fin cfg0.N) (q : Fin 512) (o : Fin 4608)
    (ho : o.val = win0_4.index t (1 : Fin 2) * 512 + q.val) :
    iblk m c 2 t (ix2 q (0 : Fin 1)) = V m c main_v1 (ix2 o (0 : Fin 1)) := by
  obtain ⟨-, -, -, -, e4, e5, -⟩ := index_facts t
  show V m c main_v1 (((cfg0.win 2).blk t).view.emb (ix2 q (0 : Fin 1))) = V m c main_v1 (ix2 o (0 : Fin 1))
  have h : ((cfg0.win 2).blk t).view.emb (ix2 q (0 : Fin 1)) = ix2 o (0 : Fin 1) := by
    funext a; apply Fin.ext
    match a with
    | ⟨0, _⟩ => show win0_2.index t (0 : Fin 2) * 512 + 1 * q.val = o.val; omega
    | ⟨1, _⟩ => show win0_2.index t (1 : Fin 2) * 1 + 1 * 0 = 0; omega
  rw [h]

/-- The bias block holds the biases of those channels. -/
theorem read_bias (c : Dev nD) (t : Fin cfg0.N) (q : Fin 512) (o : Fin 4608)
    (ho : o.val = win0_4.index t (1 : Fin 2) * 512 + q.val) :
    iblk m c 3 t (ix2 (0 : Fin 1) q) = V m c main_v2 (ix2 (0 : Fin 1) o) := by
  obtain ⟨-, -, -, -, -, -, e6, e7, -⟩ := index_facts t
  show V m c main_v2 (((cfg0.win 3).blk t).view.emb (ix2 (0 : Fin 1) q)) = V m c main_v2 (ix2 (0 : Fin 1) o)
  have h : ((cfg0.win 3).blk t).view.emb (ix2 (0 : Fin 1) q) = ix2 (0 : Fin 1) o := by
    funext a; apply Fin.ext
    match a with
    | ⟨0, _⟩ => show win0_3.index t (0 : Fin 2) * 1 + 1 * 0 = 0; omega
    | ⟨1, _⟩ => show win0_3.index t (1 : Fin 2) * 512 + 1 * q.val = o.val; omega
  rw [h]

/-- What a point writes back is its block of the result matrix. -/
theorem flushed_eq (c : Dev nD) (t : Fin cfg0.N) :
    (dats m 0 c).flushed 4 t = ((cfg0.win 4).blk t).view.read (Elt Ideal) (resultMat m c) := by
  show (cfg0.win 4).cut (grid0.coords t) ((dats m 0 c).after 4 t) = _
  rw [after0_4]
  unfold out0_4
  rw [View.canon_unit_zero zero_offsets]
  simp only [View.ld_unit_zero (S := S1024x1152) zero_offsets, View.ld_unit_zero (S := S512x1152) zero_offsets,
    View.ld_unit_zero (S := S512x1) zero_offsets, View.ld_unit_zero (S := S1x512) zero_offsets]
  funext j
  obtain ⟨p, q, rfl⟩ : ∃ (p : Fin 1024) (q : Fin 512), j = ix2 p q := ⟨j 0, j 1, eq_ix2 j⟩
  obtain ⟨-, -, -, -, -, -, -, -, b0, b1⟩ := index_facts t
  have hp : p.val < 1024 := p.isLt
  have hq : q.val < 512 := q.isLt
  show k0_pay1 (iblk m c 0 t) (iblk m c 1 t) (iblk m c 2 t) (iblk m c 3 t) (ix2 p q)
    = resultMat m c (((cfg0.win 4).blk t).view.emb (ix2 p q))
  have hemb : ((cfg0.win 4).blk t).view.emb (ix2 p q)
      = ix2 (⟨win0_4.index t (0 : Fin 2) * 1024 + p.val, by omega⟩ : Fin 16384)
          (⟨win0_4.index t (1 : Fin 2) * 512 + q.val, by omega⟩ : Fin 4608) := by
    funext a; apply Fin.ext
    match a with
    | ⟨0, _⟩ => show win0_4.index t (0 : Fin 2) * 1024 + 1 * p.val = win0_4.index t (0 : Fin 2) * 1024 + p.val; omega
    | ⟨1, _⟩ => show win0_4.index t (1 : Fin 2) * 512 + 1 * q.val = win0_4.index t (1 : Fin 2) * 512 + q.val; omega
  rw [hemb]
  refine (BlockValue.pay_apply (iblk m c 0 t) (iblk m c 1 t) (iblk m c 2 t) (iblk m c 3 t) p q).trans ?_
  exact mat_of_blocks (V m c main_v0) (V m c main_arg1) (V m c main_v1) (V m c main_v2)
    (iblk m c 0 t) (iblk m c 1 t) (iblk m c 2 t) (iblk m c 3 t)
    (win0_4.index t (0 : Fin 2)) (win0_4.index t (1 : Fin 2)) p q _ _ rfl rfl
    (read_act m c t) (read_wt m c t) (read_scale m c t) (read_bias m c t)

/-- An index of the result matrix is in a point's block iff each coordinate is in the block's range. -/
theorem mem_blk (t : Fin cfg0.N) (i : S16384x4608.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v3).slice (win0_4.rect t)).set ↔ _
  rw [View.set_slice_whole, Rect.mem_set_unit]
  exact Iff.rfl

/-- Every entry of the result matrix lies in the block of the point at (row / 1024, column / 512). -/
theorem covered (i : S16384x4608.Idx) :
    ∃ t : Fin cfg0.N, (cfg0.win 4).flush t = true ∧ i ∈ ((cfg0.win 4).blk t).view.set := by
  have hi0 : (i 0).val < 16384 := (i 0).isLt
  have hi1 : (i 1).val < 4608 := (i 1).isLt
  obtain ⟨t, ht⟩ := index_onto ⟨(i 0).val / 1024, by omega⟩ ⟨(i 1).val / 512, by omega⟩
  have q0 : win0_4.index t (0 : Fin 2) = (i 0).val / 1024 := congrFun ht 0
  have q1 : win0_4.index t (1 : Fin 2) = (i 1).val / 512 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 512 ≤ (i 1).val ∧ (i 1).val < win0_4.index t (1 : Fin 2) * 512 + 512
    omega

/-- The result matrix after the run. -/
theorem final (c : Dev nD) : (dats m 0 c).arrAt 4 cfg0.N = resultMat m c :=
  (dats m 0 c).arrAt_eq_of_cover 4 (resultMat m c) (fun t _ => flushed_eq m c t) covered

end Cert.KernelIdeal.ArrayValue

end
-- ==== Proof.KernelRun.lean ====
/-
  The kernel's program around its call. Before the call the activations are flattened to a matrix, the scales made a
  column and the biases a row; after it the result matrix is unflattened. So the call finds, besides the weights as
  given, three reshapes of the arguments, and the program's result is the reshape of the matrix the call leaves:
  the result array `cube` of the four arguments, which end unchanged.
-/
import proofs.«102484_j64269890617869_1_alg».proof.Proof.Blocks
import Idealize.ShloMosaic.Lib.StableHlo.Run

noncomputable section

namespace Cert.KernelIdeal.RunValue

open Cert.KernelIdeal Cert.KernelIdeal.Gen Idealize.ShloMosaic Idealize.ShloMosaic.TcCoe Idealize.SL.Sem
open Idealize.ShloMosaic.ValueIdx Cert.QuantGelu Idealize.ShloMosaic.StableHlo
open Idealize.ShloMosaic.Pipeline (Dat)

variable (m : (ℓ : Loc nD τ sig) → Buf (Elt Ideal) ℓ) (ρ : Dev nD → PrngReg)

/-- The call finds the activations flattened to [16384, 1152]. -/
theorem entry_act (c : Dev nD) : (V m c main_v0 : S16384x1152.Idx → EReal)
    = shapeCast S16384x1152 (m ((c : Thread nD τ).loc main_arg0)) Facts₀.shapeCasts_S8x2048x1152_S16384x1152 := by
  show StableHlo.after hostOps0 (fun b => m (c, b)) (Proc.devRef .tc main_v0) = _
  after_results
  rfl

/-- It finds the scales as a column [4608, 1]. -/
theorem entry_scale (c : Dev nD) : (V m c main_v1 : S4608x1.Idx → EReal)
    = shapeCast S4608x1 (m ((c : Thread nD τ).loc main_arg2)) Facts₀.shapeCasts_S4608_S4608x1 := by
  show StableHlo.after hostOps0 (fun b => m (c, b)) (Proc.devRef .tc main_v1) = _
  after_results
  rfl

/-- It finds the biases as a row [1, 4608]. -/
theorem entry_bias (c : Dev nD) : (V m c main_v2 : S1x4608.Idx → EReal)
    = shapeCast S1x4608 (m ((c : Thread nD τ).loc main_arg3)) Facts₀.shapeCasts_S4608_S1x4608 := by
  show StableHlo.after hostOps0 (fun b => m (c, b)) (Proc.devRef .tc main_v2) = _
  after_results
  rfl

/-- The program's result is the matrix the call leaves, unflattened to [8, 2048, 4608]. -/
theorem tail_result (c : Dev nD) : Pipeline.afterTail₀ cfgs (dats m) 0 (V0 m) [hostOps1] c main_v4
    = shapeCast S8x2048x4608 ((dats m 0 c).arrAt 4 cfg0.N) Facts₀.shapeCasts_S16384x4608_S8x2048x4608 := by
  unfold Pipeline.afterTail₀
  show StableHlo.after hostOps1 _ (Proc.devRef .tc main_v4) = _
  after_results
  exact congrArg (fun A => shapeCast S8x2048x4608 A Facts₀.shapeCasts_S16384x4608_S8x2048x4608)
    (Pipeline.withArrays_arr (cfgs 0).spec launch0.win.arr_inj c (V0 m c) (fun w => (dats m 0 c).arrAt w (cfgs 0).N) 4)

/-- So the program's result is `cube` of its four arguments. -/
theorem result_eq_cube (c : Dev nD) : Pipeline.afterTail₀ cfgs (dats m) 0 (V0 m) [hostOps1] c main_v4
    = cube (m ((c : Thread nD τ).loc main_arg0)) (m ((c : Thread nD τ).loc main_arg1))
        (m ((c : Thread nD τ).loc main_arg2)) (m ((c : Thread nD τ).loc main_arg3)) := by
  rw [tail_result, ArrayValue.final]
  unfold ArrayValue.resultMat
  rw [entry_act, entry_scale, entry_bias, V_main_arg1]
  exact unflatten_mat_eq_cube _ _ _ _ _ _ _ _

/-- Every weakly fair execution of the kernel's program ends with its result at `cube` of the arguments and the
    arguments as they were. -/
theorem run : θ_run defs (onTc (τ := τ) (main (F := Ideal))) ⟨m, fun _ => 0, ρ⟩ fun r => ∀ c : Dev nD,
      r.2.mem ((c.tc : Thread nD τ).loc main_v4)
        = cube (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result_eq_cube m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.lean ====
/-
  A dense layer over integer-quantized weights with the tanh form of GELU, as a tiled kernel and as plain array
  operations. Both compute, at entry (b, s, o),

      y = (sum over k of x (b, s, k) * (w (o, k) * scale o)) + bias o,     (1/2 * y) * (1 + tanh (c * (y + ((a * y) * y) * y))),

  with the same grouping of every product and sum and the same four float constants, so at exact arithmetic the two
  results are equal without any law of arithmetic: what differs is only layout. The kernel flattens the leading two
  axes, runs a 16 x 9 grid of [1024, 512] blocks, each a contraction of 1024 activation rows against 512 scaled
  weight rows plus a bias row, and unflattens; the blocks tile the result, each entry of a block depends only on the
  rows its point was handed, and a reshape keeps every element's row-major position. The reference converts and
  scales the whole weight matrix, contracts over the last axis of both operands and broadcasts the bias. Both results
  are the one array `cube` of the arguments (Proof/Spec.lean). The idealized kernel is the kernel's own text read at
  exact arithmetic, so nothing is owed for that step.
-/
import proofs.«102484_j64269890617869_1_alg».proof.Defs
import proofs.«102484_j64269890617869_1_alg».proof.Proof.Gen.Kernel
import proofs.«102484_j64269890617869_1_alg».proof.Proof.Gen.Kernel.Skeleton
import proofs.«102484_j64269890617869_1_alg».proof.Proof.Gen.Kernel.Launch
import proofs.«102484_j64269890617869_1_alg».proof.Proof.Gen.Kernel.Points
import proofs.«102484_j64269890617869_1_alg».proof.Proof.Gen.Kernel.Frame
import proofs.«102484_j64269890617869_1_alg».proof.Proof.Gen.KernelIdeal
import proofs.«102484_j64269890617869_1_alg».proof.Proof.Gen.KernelIdeal.Skeleton
import proofs.«102484_j64269890617869_1_alg».proof.Proof.Gen.KernelIdeal.Launch
import proofs.«102484_j64269890617869_1_alg».proof.Proof.Gen.KernelIdeal.Points
import proofs.«102484_j64269890617869_1_alg».proof.Proof.Gen.KernelIdeal.Frame
import proofs.«102484_j64269890617869_1_alg».proof.Proof.Gen.ReferenceIdeal
import proofs.«102484_j64269890617869_1_alg».proof.Proof.Gen.Pre_finite_inputs
import proofs.«102484_j64269890617869_1_alg».proof.Proof.Gen.ReferenceIdeal.Run
import proofs.«102484_j64269890617869_1_alg».proof.Proof.Gen.ReferenceIdeal.Read
import proofs.«102484_j64269890617869_1_alg».proof.Proof.RefValue
import proofs.«102484_j64269890617869_1_alg».proof.Proof.KernelRun
import Idealize.ShloMosaic.Adequacy
import Idealize.ShloMosaic.Init

noncomputable section

namespace Cert.Proof

open Idealize.ShloMosaic Idealize.SL.Sem Cert.QuantGelu

/-- The kernel's program runs and leaves its arguments as they were. -/
theorem frame_kernel : Cert.frame_Kernel := fun m ρ _ => Cert.Kernel.Gen.frame m ρ

/-- So does the same program read at exact arithmetic. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to exact arithmetic. -/
theorem preserves : Cert.preserves_Kernel_KernelIdeal := trivial

/-- From memories that agree on the arguments both programs end at the array `cube` of those arguments. -/
theorem algebraic : Cert.algebraic_KernelIdeal_ReferenceIdeal := by
  intro m ρ m' ρ' _ hagree
  refine ⟨fun c => cube (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.stage_eq_cube,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
